-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S16x10 .f32) (main_arg10 : FVec F S10 .f32) (main_v33 : IVec S_ 1) : IVec S_ 1 :=
  let main_v34 : FVec F S16x10 .f32 := Host.absf main_arg9
  let main_cst_12 : FVec F S_ .f32 := constant S_ .f32 0x7F800000#32
  let main_v35 : FVec F S16x10 .f32 := broadcastInDim S16x10 ![] bcast_S_S16x10 main_cst_12
  let main_v36 : IVec S16x10 1 := cmpf .olt main_v34 main_v35
  let main_c_13 : IVec S_ 1 := constantI S_ 1 1#1
  let main_v37 : IVec S_ 1 := (fun x v => Host.reduce IntOp.andi x v reducesTo_S16x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S16 .f32) (main_arg7 : FVec F S16x16 .f32) (main_arg8 : FVec F S16 .f32) (main_arg9 : FVec F S16x10 .f32) (main_arg10 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x16 .f32) (main_arg6 : FVec F S16 .f32) (main_arg7 : FVec F S16x16 .f32) (main_arg8 : FVec F S16 .f32) (main_arg9 : FVec F S16x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x16 : Shape := ⟨2, ![1, 16]⟩
abbrev S1x10 : Shape := ⟨2, ![1, 10]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S512x16 : Shape := ⟨2, ![512, 16]⟩
abbrev S100000x1 : Shape := ⟨2, ![100000, 1]⟩
abbrev S512x10 : Shape := ⟨2, ![512, 10]⟩

abbrev nBuf : Space → Nat
  | .hbm => 116
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x10, .f32⟩
  | .hbm, ⟨10, _⟩ => ⟨S10, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S1x16, .f32⟩
  | .hbm, ⟨55, _⟩ => ⟨S1x16, .f32⟩
  | .hbm, ⟨56, _⟩ => ⟨S1x10, .f32⟩
  | .hbm, ⟨57, _⟩ => ⟨S100000x16, .f32⟩
  | .hbm, ⟨58, _⟩ => ⟨S_, .i32⟩
  | .hbm, ⟨59, _⟩ => ⟨S3300000, .i32⟩
  | .hbm, ⟨60, _⟩ => ⟨S3300000, .i1⟩
  | .hbm, ⟨61, _⟩ => ⟨S_, .i32⟩
  | .hbm, ⟨62, _⟩ => ⟨S3300000, .i32⟩
  | .hbm, ⟨63, _⟩ => ⟨S3300000, .i32⟩
  | .hbm, ⟨64, _⟩ => ⟨S3300000, .i32⟩
  | .hbm, ⟨65, _⟩ => ⟨S3300000x1, .i32⟩
  | .hbm, ⟨66, _⟩ => ⟨S3300000x16, .f32⟩
  | .hbm, ⟨67, _⟩ => ⟨S3300000x1, .f32⟩
  | .hbm, ⟨68, _⟩ => ⟨S3300000x16, .f32⟩
  | .hbm, ⟨69, _⟩ => ⟨S3300000x16, .f32⟩
  | .hbm, ⟨70, _⟩ => ⟨S_, .f32⟩
  | .hbm, ⟨71, _⟩ => ⟨S100000x16, .f32⟩
  | .hbm, ⟨72, _⟩ => ⟨S3300000x1, .i32⟩
  | .hbm, ⟨73, _⟩ => ⟨S100000x16, .f32⟩
  | .hbm, ⟨74, _⟩ => ⟨S100000x16, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x16, .f32⟩
  | .hbm, ⟨84, _⟩ => ⟨S3300000x1, .f32⟩
  | .hbm, ⟨85, _⟩ => ⟨S3300000x16, .f32⟩
  | .hbm, ⟨86, _⟩ => ⟨S3300000x16, .f32⟩
  | .hbm, ⟨87, _⟩ => ⟨S_, .f32⟩
  | .hbm, ⟨88, _⟩ => ⟨S100000x16, .f32⟩
  | .hbm, ⟨89, _⟩ => ⟨S3300000x1, .i32⟩
  | .hbm, ⟨90, _⟩ => ⟨S100000x16, .f32⟩
  | .hbm, ⟨91, _⟩ => ⟨S100000x16, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x16, .f32⟩
  | .hbm, ⟨101, _⟩ => ⟨S3300000x1, .f32⟩
  | .hbm, ⟨102, _⟩ => ⟨S3300000x16, .f32⟩
  | .hbm, ⟨103, _⟩ => ⟨S3300000x16, .f32⟩
  | .hbm, ⟨104, _⟩ => ⟨S_, .f32⟩
  | .hbm, ⟨105, _⟩ => ⟨S100000x16, .f32⟩
  | .hbm, ⟨106, _⟩ => ⟨S3300000x1, .i32⟩
  | .hbm, ⟨107, _⟩ => ⟨S100000x16, .f32⟩
  | .hbm, ⟨108, _⟩ => ⟨S1x16, .f32⟩
  | .hbm, ⟨109, _⟩ => ⟨S100000x16, .f32⟩
  | .hbm, ⟨110, _⟩ => ⟨S100000x16, .f32⟩
  | .hbm, ⟨111, _⟩ => ⟨S_, .f32⟩
  | .hbm, ⟨112, _⟩ => ⟨S512x16, .f32⟩
  | .hbm, ⟨113, _⟩ => ⟨S100000x1, .i32⟩
  | .hbm, ⟨114, _⟩ => ⟨S512x16, .f32⟩
  | .hbm, ⟨115, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x16, .f32⟩
  | .local _ .vmem, ⟨15, _⟩ => ⟨S10000x16, .f32⟩
  | .local _ .vmem, ⟨16, _⟩ => ⟨S10000x16, .f32⟩
  | .local _ .vmem, ⟨17, _⟩ => ⟨S512x16, .f32⟩
  | .local _ .vmem, ⟨18, _⟩ => ⟨S16x10, .f32⟩
  | .local _ .vmem, ⟨19, _⟩ => ⟨S1x10, .f32⟩
  | .local _ .vmem, ⟨20, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S16_S1x16 : S16.ShapeCasts S1x16
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  scatter_S512x16_S100000x1_S100000x16_1_0_0_1_wf : ScatterDims.WF S512x16 S100000x1 S100000x16 [1] [0] [0] 1
  dot_S512x16_S16x10_S512x10_1_0_0_1_n_n_wf : DotDims.WF S512x16 S16x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x16.size a ≤ S512x16.size a
  hwx3_0 : ∀ i : grid3.Coords, EltTy.bits .f32 = 32 ∨ (Rect.block (s := S512x16) S512x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x10.size a ≤ S16x10.size a
  hwx3_1 : ∀ i : grid3.Coords, EltTy.bits .f32 = 32 ∨ (Rect.block (s := S16x10) S16x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S512x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S16x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S512x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512x10 : Shape := ⟨2, ![512, 10]⟩
abbrev S1x10 : Shape := ⟨2, ![1, 10]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x10, .f32⟩
  | .hbm, ⟨10, _⟩ => ⟨S10, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x16, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x1, .f32⟩
  | .hbm, ⟨65, _⟩ => ⟨S3300000x16, .f32⟩
  | .hbm, ⟨66, _⟩ => ⟨S3300000x16, .f32⟩
  | .hbm, ⟨67, _⟩ => ⟨S_, .f32⟩
  | .hbm, ⟨68, _⟩ => ⟨S100000x16, .f32⟩
  | .hbm, ⟨69, _⟩ => ⟨S3300000x1, .i32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | .hbm, ⟨74, _⟩ => ⟨S_, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x16, .f32⟩
  | .hbm, ⟨87, _⟩ => ⟨S3300000x1, .f32⟩
  | .hbm, ⟨88, _⟩ => ⟨S3300000x16, .f32⟩
  | .hbm, ⟨89, _⟩ => ⟨S3300000x16, .f32⟩
  | .hbm, ⟨90, _⟩ => ⟨S_, .f32⟩
  | .hbm, ⟨91, _⟩ => ⟨S100000x16, .f32⟩
  | .hbm, ⟨92, _⟩ => ⟨S3300000x1, .i32⟩
  | .hbm, ⟨93, _⟩ => ⟨S100000x16, .f32⟩
  | .hbm, ⟨94, _⟩ => ⟨S1x16, .f32⟩
  | .hbm, ⟨95, _⟩ => ⟨S100000x16, .f32⟩
  | .hbm, ⟨96, _⟩ => ⟨S100000x16, .f32⟩
  | .hbm, ⟨97, _⟩ => ⟨S_, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .i32⟩
  | .hbm, ⟨102, _⟩ => ⟨S3300000, .i32⟩
  | .hbm, ⟨103, _⟩ => ⟨S3300000, .i1⟩
  | .hbm, ⟨104, _⟩ => ⟨S_, .i32⟩
  | .hbm, ⟨105, _⟩ => ⟨S3300000, .i32⟩
  | .hbm, ⟨106, _⟩ => ⟨S3300000, .i32⟩
  | .hbm, ⟨107, _⟩ => ⟨S3300000, .i32⟩
  | .hbm, ⟨108, _⟩ => ⟨S3300000x1, .i32⟩
  | .hbm, ⟨109, _⟩ => ⟨S3300000x16, .f32⟩
  | .hbm, ⟨110, _⟩ => ⟨S3300000x1, .f32⟩
  | .hbm, ⟨111, _⟩ => ⟨S3300000x16, .f32⟩
  | .hbm, ⟨112, _⟩ => ⟨S3300000x16, .f32⟩
  | .hbm, ⟨113, _⟩ => ⟨S_, .f32⟩
  | .hbm, ⟨114, _⟩ => ⟨S100000x16, .f32⟩
  | .hbm, ⟨115, _⟩ => ⟨S3300000x1, .i32⟩
  | .hbm, ⟨116, _⟩ => ⟨S100000x16, .f32⟩
  | .hbm, ⟨117, _⟩ => ⟨S1x16, .f32⟩
  | .hbm, ⟨118, _⟩ => ⟨S100000x16, .f32⟩
  | .hbm, ⟨119, _⟩ => ⟨S100000x16, .f32⟩
  | .hbm, ⟨120, _⟩ => ⟨S_, .f32⟩
  | .hbm, ⟨121, _⟩ => ⟨S512x16, .f32⟩
  | .hbm, ⟨122, _⟩ => ⟨S100000x1, .i32⟩
  | .hbm, ⟨123, _⟩ => ⟨S512x16, .f32⟩
  | .hbm, ⟨124, _⟩ => ⟨S512x10, .f32⟩
  | .hbm, ⟨125, _⟩ => ⟨S1x10, .f32⟩
  | .hbm, ⟨126, _⟩ => ⟨S512x10, .f32⟩
  | .hbm, ⟨127, _⟩ => ⟨S512x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  dot_S512x16_S16x10_S512x10_1_0_0_1_n_n_wf : DotDims.WF S512x16 S16x10 S512x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

class Facts : Prop extends Facts₀ where

variable [Facts]
-- ==== Proof.RefValue.lean ====
/-
  The reference program's result as the composition of its stages. The library's run theorem leaves every buffer at
  the fold of the program's operations over the launch contents; here the fold is opened. The operation list is cut
  after its first seven operations — the two index vectors src and dst, each a concatenation of a row of the edge
  list with 0 … n−1 — and the remaining hundred and ten operations are followed in one pass from contents in which
  those two vectors are given; so no step has to look inside a concatenation's list of pieces.
-/
import proofs.«167334_j15204184228223_1_alg».proof.Proof.RefReadP

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Two stretches of operations run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first seven operations: 0 … n−1, the two rows of the edge list, and the two index vectors. -/
abbrev opsHead : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The other hundred and ten operations. -/
abbrev opsTail : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg3 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x16 ![0, 1] bcast_S3300000x1_S3300000x16_0_1 : (⟨S3300000x1, .f32⟩ : BufTy).Contents (Elt F) → (⟨S3300000x16, .f32⟩ : BufTy).Contents (Elt F)),
    binary main_v57 main_v59 main_v60 (mulf : (⟨S3300000x16, .f32⟩ : BufTy).Contents (Elt F) → (⟨S3300000x16, .f32⟩ : BufTy).Contents (Elt F) → (⟨S3300000x16, .f32⟩ : BufTy).Contents (Elt F)),
    nullary main_cst_12 (constant S_ .f32 0x00000000#32),
    unary main_cst_12 main_v61 (broadcastInDim S100000x16 ![] bcast_S_S100000x16 : (⟨S_, .f32⟩ : BufTy).Contents (Elt F) → (⟨S100000x16, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg6 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v66) (TRef.of (T := ⟨S100000x16, .f32⟩) main_call2_v0) (TRef.of (T := ⟨S100000x16, .f32⟩) main_v67) maximumf,
    binary main_v67 main_arg7 main_v68 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_13 (constantI S_ 32 0#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v71 (broadcastInDim S3300000 ![] bcast_S_S3300000 : (⟨S_, .i32⟩ : BufTy).Contents (Elt F) → (⟨S3300000, .i32⟩ : BufTy).Contents (Elt F)),
    binary main_v3 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v3 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v76 (broadcastInDim S3300000x1 ![0] bcast_S3300000_S3300000x1_0 : (⟨S3300000, .f32⟩ : BufTy).Contents (Elt F) → (⟨S3300000x1, .f32⟩ : BufTy).Contents (Elt F)),
    unary main_v76 main_v77 (broadcastInDim S3300000x16 ![0, 1] bcast_S3300000x1_S3300000x16_0_1 : (⟨S3300000x1, .f32⟩ : BufTy).Contents (Elt F) → (⟨S3300000x16, .f32⟩ : BufTy).Contents (Elt F)),
    binary main_v75 main_v77 main_v78 (mulf : (⟨S3300000x16, .f32⟩ : BufTy).Contents (Elt F) → (⟨S3300000x16, .f32⟩ : BufTy).Contents (Elt F) → (⟨S3300000x16, .f32⟩ : BufTy).Contents (Elt F)),
    nullary main_cst_15 (constant S_ .f32 0x00000000#32),
    unary main_cst_15 main_v79 (broadcastInDim S100000x16 ![] bcast_S_S100000x16 : (⟨S_, .f32⟩ : BufTy).Contents (Elt F) → (⟨S100000x16, .f32⟩ : BufTy).Contents (Elt F)),
    unary main_v6 main_v80 (broadcastInDim S3300000x1 ![0] bcast_S3300000_S3300000x1_0 : (⟨S3300000, .i32⟩ : BufTy).Contents (Elt F) → (⟨S3300000x1, .i32⟩ : BufTy).Contents (Elt F)),
    ternary main_v79 main_v80 main_v78 main_v81 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg8 main_v82 (broadcastInDim S1x16 ![1] bcast_S16_S1x16_1 : (⟨S16, .f32⟩ : BufTy).Contents (Elt F) → (⟨S1x16, .f32⟩ : BufTy).Contents (Elt F)),
    unary main_v82 main_v83 (broadcastInDim S100000x16 ![0, 1] bcast_S1x16_S100000x16_0_1 : (⟨S1x16, .f32⟩ : BufTy).Contents (Elt F) → (⟨S100000x16, .f32⟩ : BufTy).Contents (Elt F)),
    binary main_v81 main_v83 main_v84 (addf : (⟨S100000x16, .f32⟩ : BufTy).Contents (Elt F) → (⟨S100000x16, .f32⟩ : BufTy).Contents (Elt F) → (⟨S100000x16, .f32⟩ : BufTy).Contents (Elt F)),
    nullary main_cst_16 (constant S_ .f32 0x00000000#32),
    unary main_cst_16 main_v85 (broadcastInDim S512x16 ![] bcast_S_S512x16 : (⟨S_, .f32⟩ : BufTy).Contents (Elt F) → (⟨S512x16, .f32⟩ : BufTy).Contents (Elt F)),
    unary main_arg2 main_v86 (broadcastInDim S100000x1 ![0] bcast_S100000_S100000x1_0 : (⟨S100000, .i32⟩ : BufTy).Contents (Elt F) → (⟨S100000x1, .i32⟩ : BufTy).Contents (Elt F)),
    ternary main_v85 main_v86 main_v84 main_v87 ((fun x i u => Host.scatterAdd scatter_S512x16_S100000x1_S100000x16_1_0_0_1 x i u) : (⟨S512x16, .f32⟩ : BufTy).Contents (Elt F) → (⟨S100000x1, .i32⟩ : BufTy).Contents (Elt F) → (⟨S100000x16, .f32⟩ : BufTy).Contents (Elt F) → (⟨S512x16, .f32⟩ : BufTy).Contents (Elt F)),
    binary main_v87 main_arg9 main_v88 ((fun l r => Host.dotGeneral dot_S512x16_S16x10_S512x10_1_0_0_1_n_n none l r) : (⟨S512x16, .f32⟩ : BufTy).Contents (Elt F) → (⟨S16x10, .f32⟩ : BufTy).Contents (Elt F) → (⟨S512x10, .f32⟩ : BufTy).Contents (Elt F)),
    unary main_arg10 main_v89 (broadcastInDim S1x10 ![1] bcast_S10_S1x10_1 : (⟨S10, .f32⟩ : BufTy).Contents (Elt F) → (⟨S1x10, .f32⟩ : BufTy).Contents (Elt F)),
    unary main_v89 main_v90 (broadcastInDim S512x10 ![0, 1] bcast_S1x10_S512x10_0_1 : (⟨S1x10, .f32⟩ : BufTy).Contents (Elt F) → (⟨S512x10, .f32⟩ : BufTy).Contents (Elt F)),
    binary main_v88 main_v90 main_v91 (addf : (⟨S512x10, .f32⟩ : BufTy).Contents (Elt F) → (⟨S512x10, .f32⟩ : BufTy).Contents (Elt F) → (⟨S512x10, .f32⟩ : BufTy).Contents (Elt F)) ]

set_option maxRecDepth 8192 in
theorem ops_split : (ops : List (HloOp τ sig (Elt F))) = opsHead ++ opsTail := rfl

/-- The source index vector after the head. -/
theorem head_v3 (U : Valuation τ sig (Elt F)) :
    after opsHead U (Proc.devRef .tc main_v3) = val_main_v3 (F := F) (U (Proc.devRef .tc main_arg1)) := by
  after_results
  rfl

/-- The destination index vector after the head. -/
theorem head_v6 (U : Valuation τ sig (Elt F)) :
    after opsHead U (Proc.devRef .tc main_v6) = val_main_v6 (F := F) (U (Proc.devRef .tc main_arg1)) := by
  after_results
  rfl

/-- The head writes no argument. -/
theorem head_arg (U : Valuation τ sig (Elt F)) (r : Ref sig .tc)
    (h : r ∉ ([main_v0, main_v1, main_v2, main_v3, main_v4, main_v5, main_v6] : List (Ref sig .tc))) :
    after opsHead U (Proc.devRef .tc r) = U (Proc.devRef .tc r) :=
  after_of_writes_sub (W := [main_v0, main_v1, main_v2, main_v3, main_v4, main_v5, main_v6]) opsHead U (by
    simp only [List.Forall, nullary_writes, unary_writes, binary_writes, ternary_writes, quaternary_writes, reshape_writes, binaryIndexed_writes, unaryIndexed_writes, nary_writes, Finset.singleton_subset_iff, List.mem_toFinset]
    repeat' apply And.intro
    all_goals exact List.mem_map.mpr ⟨_, by decide, rfl⟩) h

set_option maxRecDepth 8192 in
set_option maxHeartbeats 40000000 in
/-- The tail, from contents in which the two index vectors and the arguments are given: the result is the last stage. -/
theorem tail (Up : Valuation τ sig (Elt F)) (x0 : (⟨S100000x128, .f32⟩ : BufTy).Contents (Elt F)) (x1 : (⟨S2x3200000, .i32⟩ : BufTy).Contents (Elt F)) (x2 : (⟨S100000, .i32⟩ : BufTy).Contents (Elt F)) (x3 : (⟨S128x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x16, .f32⟩ : BufTy).Contents (Elt F)) (x8 : (⟨S16, .f32⟩ : BufTy).Contents (Elt F)) (x9 : (⟨S16x10, .f32⟩ : BufTy).Contents (Elt F)) (x10 : (⟨S10, .f32⟩ : BufTy).Contents (Elt F))
    (h3 : Up (Proc.devRef .tc main_v3) = val_main_v3 (F := F) x1) (h6 : Up (Proc.devRef .tc main_v6) = val_main_v6 (F := F) x1)
    (a0 : Up (Proc.devRef .tc main_arg0) = x0) (a2 : Up (Proc.devRef .tc main_arg2) = x2) (a3 : Up (Proc.devRef .tc main_arg3) = x3) (a4 : Up (Proc.devRef .tc main_arg4) = x4) (a5 : Up (Proc.devRef .tc main_arg5) = x5) (a6 : Up (Proc.devRef .tc main_arg6) = x6) (a7 : Up (Proc.devRef .tc main_arg7) = x7) (a8 : Up (Proc.devRef .tc main_arg8) = x8) (a9 : Up (Proc.devRef .tc main_arg9) = x9) (a10 : Up (Proc.devRef .tc main_arg10) = x10) :
    after opsTail Up (Proc.devRef .tc main_v91) = val_main_v91 (F := F) x0 x1 x2 x3 x4 x5 x6 x7 x8 x9 x10 := by
  after_results_simp
  rw [h3, h6, a0, a2, a3, a4, a5, a6, a7, a8, a9, a10]
  rfl

/-- THE REFERENCE'S RESULT: the fold of all its operations over the launch contents, at the result buffer, is the
    last stage of the arguments' launch contents. -/
theorem value (U : Valuation τ sig (Elt F)) :
    after (ops : List (HloOp τ sig (Elt F))) U (Proc.devRef .tc main_v91)
      = val_main_v91 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) := by
  rw [ops_split, after_append]
  exact tail (after opsHead U) _ _ _ _ _ _ _ _ _ _ _ (head_v3 U) (head_v6 U)
    (head_arg U main_arg0 (by decide)) (head_arg U main_arg2 (by decide)) (head_arg U main_arg3 (by decide)) (head_arg U main_arg4 (by decide)) (head_arg U main_arg5 (by decide)) (head_arg U main_arg6 (by decide)) (head_arg U main_arg7 (by decide)) (head_arg U main_arg8 (by decide)) (head_arg U main_arg9 (by decide)) (head_arg U main_arg10 (by decide))

/-- The same, the arguments' launch contents given by name. -/
theorem value' (U : Valuation τ sig (Elt F)) (x0 : (⟨S100000x128, .f32⟩ : BufTy).Contents (Elt F)) (x1 : (⟨S2x3200000, .i32⟩ : BufTy).Contents (Elt F)) (x2 : (⟨S100000, .i32⟩ : BufTy).Contents (Elt F)) (x3 : (⟨S128x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x16, .f32⟩ : BufTy).Contents (Elt F)) (x8 : (⟨S16, .f32⟩ : BufTy).Contents (Elt F)) (x9 : (⟨S16x10, .f32⟩ : BufTy).Contents (Elt F)) (x10 : (⟨S10, .f32⟩ : BufTy).Contents (Elt F))
    (a0 : U (Proc.devRef .tc main_arg0) = x0) (a1 : U (Proc.devRef .tc main_arg1) = x1) (a2 : U (Proc.devRef .tc main_arg2) = x2) (a3 : U (Proc.devRef .tc main_arg3) = x3) (a4 : U (Proc.devRef .tc main_arg4) = x4) (a5 : U (Proc.devRef .tc main_arg5) = x5) (a6 : U (Proc.devRef .tc main_arg6) = x6) (a7 : U (Proc.devRef .tc main_arg7) = x7) (a8 : U (Proc.devRef .tc main_arg8) = x8) (a9 : U (Proc.devRef .tc main_arg9) = x9) (a10 : U (Proc.devRef .tc main_arg10) = x10) :
    after (ops : List (HloOp τ sig (Elt F))) U (Proc.devRef .tc main_v91)
      = val_main_v91 (F := F) x0 x1 x2 x3 x4 x5 x6 x7 x8 x9 x10 := by
  subst a0 a1 a2 a3 a4 a5 a6 a7 a8 a9 a10
  exact value U

end Cert.ReferenceIdeal.RefValue

end
-- ==== Proof.KernelRun.lean ====
/-
  The idealized kernel's run with its result array named. Every weakly fair execution of the kernel program ends,
  without a fault, with each argument array as launched and with the result array holding the last boundary's
  contents at that buffer: the contents of the fold through the program's host stretches and its four matrix-product
  regions, read at the result's buffer. The later modules open that fold one boundary at a time.
-/
import proofs.«167334_j15204184228223_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.Keeps.lean ====
/-
  Which buffers each stretch of host operations of the kernel program writes, and the consequence used throughout:
  a buffer that a step of the program does not write holds after the step what it held before it. A host stretch
  writes exactly the result buffers of its operations; a matrix-product region changes only the arrays of its own
  windows, and of those only its output. So the index vectors, the edge weights and the reshaped bias rows computed
  once at the start, and the argument arrays, are read unchanged at every later boundary.
-/
import proofs.«167334_j15204184228223_1_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- The buffers the operations of `hostOps0_1` write. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- The buffers the operations of `hostOps0_2` write. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31, main_v32, main_v33, main_v34]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- The buffers the operations of `hostOps1` write. -/
abbrev hostOps1_W : List (Ref sig .tc) := [main_c_7, main_v36, main_v37, main_c_8, main_v38, main_v39, main_v40, main_v41, main_v42, main_v43, main_v44, main_v45, main_cst_9, main_v46, main_v47, main_v48]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- The buffers the operations of `hostOps2` write. -/
abbrev hostOps2_W : List (Ref sig .tc) := [main_c_10, main_v50, main_v51, main_c_11, main_v52, main_v53, main_v54, main_v55, main_v56, main_v57, main_v58, main_v59, main_cst_12, main_v60, main_v61, main_v62]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- The buffers the operations of `hostOps3` write. -/
abbrev hostOps3_W : List (Ref sig .tc) := [main_c_13, main_v64, main_v65, main_c_14, main_v66, main_v67, main_v68, main_v69, main_v70, main_v71, main_v72, main_v73, main_cst_15, main_v74, main_v75, main_v76, main_v77, main_v78, main_v79, main_cst_16, main_v80, main_v81, main_v82]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map.mpr ⟨_, by decide, rfl⟩

/-- A buffer `hostOps0` does not write is the same before and after it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- A buffer `hostOps0_1` does not write is the same before and after it. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- A buffer `hostOps0_2` does not write is the same before and after it. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- A buffer `hostOps1` does not write is the same before and after it. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- A buffer `hostOps2` does not write is the same before and after it. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h

/-- A buffer `hostOps3` does not write is the same before and after it. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-- At launch a buffer holds the launch memory's contents. -/
theorem W0_eq (c : Dev nD) (r : Ref sig .tc) : W0 m ρ c (Proc.devRef .tc r) = m ((c : Thread nD τ).loc r) := rfl

end Cert.KernelIdeal.Keeps

end
-- ==== Proof.Stretches.lean ====
/-
  The kernel program's stretches of host operations, one at a time. Each stretch is the same sequence of operations
  the reference performs at that place: the index vectors and the symmetric edge weights at the start, and after
  each matrix-product region the gather of source rows, the scaling by the edge weight and the scatter-add onto
  destination rows (after the last one also the bias and the pooling scatter-add). So, run from any contents in which
  the buffers it reads hold the reference's stages, a stretch leaves the reference's next stage in the buffer it is
  read from later. Nothing here looks inside a gather or a scatter: the two sides are the same term.
-/
import proofs.«167334_j15204184228223_1_alg».proof.Proof.Gen.KernelIdeal.Launch
import proofs.«167334_j15204184228223_1_alg».proof.Proof.RefReadP

set_option maxRecDepth 16384

noncomputable section

namespace Cert.KernelIdeal.Stretches

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (Wp : Valuation τ sig (Elt F))

/-! ## The start: index vectors, degrees, edge weights -/

theorem first_v3 : after hostOps0 Wp (Proc.devRef .tc main_v3) = val_main_v3 (F := F) (Wp (Proc.devRef .tc main_arg1)) := by
  after_results
  rfl
theorem first_v6 : after hostOps0 Wp (Proc.devRef .tc main_v6) = val_main_v6 (F := F) (Wp (Proc.devRef .tc main_arg1)) := by
  after_results
  rfl
theorem first_v12 : after hostOps0 Wp (Proc.devRef .tc main_v12) = val_main_v12 (F := F) (Wp (Proc.devRef .tc main_arg1)) := by
  after_results
  rfl
theorem first_v15 : after hostOps0 Wp (Proc.devRef .tc main_v15) = val_main_v15 (F := F) (Wp (Proc.devRef .tc main_arg1)) := by
  after_results
  rfl
theorem first_cst3 : after hostOps0 Wp (Proc.devRef .tc main_cst_3) = val_main_cst_3 (F := F) := by
  after_results
  rfl

/-- The inverse square root of the degree where the degree is positive, zero elsewhere. -/
theorem where_v16 (x1 : (⟨S2x3200000, .i32⟩ : BufTy).Contents (Elt F))
    (h12 : Wp (Proc.devRef .tc main_v12) = val_main_v12 (F := F) x1) (h15 : Wp (Proc.devRef .tc main_v15) = val_main_v15 (F := F) x1)
    (hc : Wp (Proc.devRef .tc main_cst_3) = val_main_cst_3 (F := F)) :
    after hostOps0_1 Wp (Proc.devRef .tc main_v16) = val_main_v16 (F := F) x1 := by
  after_results
  rw [h12, h15, hc]
  rfl

set_option maxHeartbeats 8000000 in
/-- The edge weights: the two gathered inverse square roots multiplied. -/
theorem weights_v31 (x1 : (⟨S2x3200000, .i32⟩ : BufTy).Contents (Elt F))
    (h3 : Wp (Proc.devRef .tc main_v3) = val_main_v3 (F := F) x1) (h6 : Wp (Proc.devRef .tc main_v6) = val_main_v6 (F := F) x1)
    (h16 : Wp (Proc.devRef .tc main_v16) = val_main_v16 (F := F) x1) :
    after hostOps0_2 Wp (Proc.devRef .tc main_v31) = val_main_v31 (F := F) x1 := by
  after_results_simp
  rw [h3, h6, h16]
  rfl

/-- The three bias vectors laid out as one-row arrays. -/
theorem row_v32 : after hostOps0_2 Wp (Proc.devRef .tc main_v32) = shapeCast S1x16 (Wp (Proc.devRef .tc main_arg4)) shapeCasts_S16_S1x16 := by
  after_results
  rfl
theorem row_v33 : after hostOps0_2 Wp (Proc.devRef .tc main_v33) = shapeCast S1x16 (Wp (Proc.devRef .tc main_arg6)) shapeCasts_S16_S1x16 := by
  after_results
  rfl
theorem row_v34 : after hostOps0_2 Wp (Proc.devRef .tc main_v34) = shapeCast S1x10 (Wp (Proc.devRef .tc main_arg10)) shapeCasts_S10_S1x10 := by
  after_results
  rfl

/-! ## Aggregation after each of the first three products -/

set_option maxHeartbeats 8000000 in
theorem agg1 (x0 : (⟨S100000x128, .f32⟩ : BufTy).Contents (Elt F)) (x1 : (⟨S2x3200000, .i32⟩ : BufTy).Contents (Elt F)) (x3 : (⟨S128x16, .f32⟩ : BufTy).Contents (Elt F))
    (hh : Wp (Proc.devRef .tc main_v35) = val_main_v32 (F := F) x0 x3)
    (h3 : Wp (Proc.devRef .tc main_v3) = val_main_v3 (F := F) x1) (h6 : Wp (Proc.devRef .tc main_v6) = val_main_v6 (F := F) x1)
    (h31 : Wp (Proc.devRef .tc main_v31) = val_main_v31 (F := F) x1) :
    after hostOps1 Wp (Proc.devRef .tc main_v48) = val_main_v45 (F := F) x0 x1 x3 := by
  after_results_simp
  rw [hh, h3, h6, h31]
  rfl

set_option maxHeartbeats 8000000 in
theorem agg2 (x0 : (⟨S100000x128, .f32⟩ : BufTy).Contents (Elt F)) (x1 : (⟨S2x3200000, .i32⟩ : BufTy).Contents (Elt F)) (x3 : (⟨S128x16, .f32⟩ : BufTy).Contents (Elt F)) (x4 : (⟨S16, .f32⟩ : BufTy).Contents (Elt F)) (x5 : (⟨S16x16, .f32⟩ : BufTy).Contents (Elt F))
    (hh : Wp (Proc.devRef .tc main_v49) = val_main_v50 (F := F) x0 x1 x3 x4 x5)
    (h3 : Wp (Proc.devRef .tc main_v3) = val_main_v3 (F := F) x1) (h6 : Wp (Proc.devRef .tc main_v6) = val_main_v6 (F := F) x1)
    (h31 : Wp (Proc.devRef .tc main_v31) = val_main_v31 (F := F) x1) :
    after hostOps2 Wp (Proc.devRef .tc main_v62) = val_main_v63 (F := F) x0 x1 x3 x4 x5 := by
  after_results_simp
  rw [hh, h3, h6, h31]
  rfl

set_option maxHeartbeats 8000000 in
/-- After the third product: the aggregation, the third bias on every row, and the sum of the rows of each graph. -/
theorem agg3_pool (x0 : (⟨S100000x128, .f32⟩ : BufTy).Contents (Elt F)) (x1 : (⟨S2x3200000, .i32⟩ : BufTy).Contents (Elt F)) (x2 : (⟨S100000, .i32⟩ : BufTy).Contents (Elt F)) (x3 : (⟨S128x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x16, .f32⟩ : BufTy).Contents (Elt F)) (x8 : (⟨S16, .f32⟩ : BufTy).Contents (Elt F))
    (hh : Wp (Proc.devRef .tc main_v63) = val_main_v68 (F := F) x0 x1 x3 x4 x5 x6 x7)
    (h3 : Wp (Proc.devRef .tc main_v3) = val_main_v3 (F := F) x1) (h6 : Wp (Proc.devRef .tc main_v6) = val_main_v6 (F := F) x1)
    (h31 : Wp (Proc.devRef .tc main_v31) = val_main_v31 (F := F) x1)
    (a8 : Wp (Proc.devRef .tc main_arg8) = x8) (a2 : Wp (Proc.devRef .tc main_arg2) = x2) :
    after hostOps3 Wp (Proc.devRef .tc main_v82) = val_main_v87 (F := F) x0 x1 x2 x3 x4 x5 x6 x7 x8 := by
  after_results_simp
  rw [hh, h3, h6, h31, a8, a2]
  rfl

end Cert.KernelIdeal.Stretches

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«167334_j15204184228223_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Region0.lean ====
/-
  The first matrix-product region: X·W₁ computed ten thousand rows at a time. Grid point t loads rows
  10000·t … 10000·t + 9999 of X and the whole of W₁ and stores their product as the same rows of the result. A row of
  a product depends only on that row of the left operand, so what point t writes back is block t of the whole product,
  the ten blocks tile the result, and the result array ends holding X·W₁.
-/
import proofs.«167334_j15204184228223_1_alg».proof.Proof.Gen.KernelIdeal.Frame
import proofs.«167334_j15204184228223_1_alg».proof.Proof.LibMatProd
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx Idealize.ShloMosaic.DotPlain Idealize.ShloMosaic.MatProd

variable (V : (c : Dev nD) → (b : Ref sig .tc) → Buf (Elt Ideal) ((c : Thread nD τ).loc b))

theorem hz : (![0, 0] : Fin 2 → Nat) = fun _ => 0 := funext fun a => by fin_cases a <;> rfl

/-- The region's dimension numbers are those of a plain matrix product. -/
theorem plain : IsPlain dot_S10000x128_S128x16_S10000x16_1_0_0_1_n_n := ⟨rfl, rfl, rfl, rfl, rfl, rfl⟩

/-- The body's stored value is the product of its two loaded blocks. -/
theorem pay_apply (x0 : Vec Ideal S10000x128 .f32) (x1 : Vec Ideal S128x16 .f32) (j : S10000x16.Idx) :
    k0_pay1 x0 x1 j = matProd x0 x1 j := by
  unfold k0_pay1
  exact MatProd.matmul_zero_apply plain none _ _ j

/-- An entry of the product of a block of rows is the whole product's entry on the row the block's row is. -/
theorem pay_rows (x0 : Vec Ideal S10000x128 .f32) (x1 : Vec Ideal S128x16 .f32)
    (A : S100000x128.Idx → EReal) (B : S128x16.Idx → EReal) (y : S10000x16.Idx) (i : S100000x16.Idx)
    (hl : ∀ k : Fin 128, x0 (ix2 (y 0) k) = A (ix2 (i 0) k)) (hr : ∀ k : Fin 128, x1 (ix2 k (y 1)) = B (ix2 k (i 1))) :
    k0_pay1 x0 x1 y = matProd A B i :=
  (pay_apply x0 x1 y).trans (Finset.sum_congr rfl fun k _ => by
    show x0 (ix2 (y 0) k) * x1 (ix2 k (y 1)) = A (ix2 (i 0) k) * B (ix2 k (i 1))
    rw [hl k, hr k])

/-- The printed index maps over the grid: point t's blocks start at row block t of X and of the result, and at the
    origin of W₁. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the two arrays as the region finds them. -/
theorem flushed (c : Dev nD) (t : Fin cfg0.N) :
    (dat0 V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  funext y
  refine pay_rows (iblk0 V c 0 t) (iblk0 V c 1 t) (V c main_arg0) (V c main_arg3) y (((cfg0.win 2).blk t).view.emb y) ?_ ?_
  · intro k
    show V c main_arg0 (((cfg0.win 0).blk t).view.emb (ix2 (y 0) k)) = _
    refine congrArg (V c main_arg0) ?_
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  · intro k
    show V c main_arg3 (((cfg0.win 1).blk t).view.emb (ix2 k (y 1))) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 16 + 1 * (y 1).val = win0_2.index t (1 : Fin 2) * 16 + 1 * (y 1).val; omega

/-- An index of the result is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v35).slice (win0_2.rect t)).set ↔ _
  rw [View.set_slice_whole, Rect.mem_set_unit]
  exact Iff.rfl

/-- The ten row blocks tile the result: row r is in the block of point r / 10000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 10000 < cfg0.N := by show _ < grid0.N; rw [N_0]; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 16 ≤ (i 1).val ∧ (i 1).val < win0_2.index ⟨(i 0).val / 10000, hN⟩ (1 : Fin 2) * 16 + 16
    rw [e5]; omega

/-- THE REGION'S RESULT ARRAY after the region, whatever the contents it is entered from: the product of the two
    arrays its input windows range over. -/
theorem value (c : Dev nD) (A : S100000x128.Idx → EReal) (B : S128x16.Idx → EReal)
    (hA : V c main_arg0 = A) (hB : V c main_arg3 = B) :
    (dat0 V c).arrAt 2 cfg0.N = matProd A B := by
  subst hA hB
  exact (dat0 V c).arrAt_eq_of_cover 2 _ (fun t _ => flushed V c t) (cover)

end Cert.KernelIdeal.Region0

end
-- ==== Proof.Layer.lean ====
/-
  The two row-wise maps of the network's dense layers, on arrays of extended reals. `biasRelu A b` adds the one-row
  array b to every row of A and floors each entry at zero; `addRow A b` only adds the row. With the matrix product of
  the two-operand product module these spell each layer: the first is X·W, the second and third are
  biasRelu(A, b)·W, and the last is addRow(P·W, b).
-/
import proofs.«167334_j15204184228223_1_alg».proof.Proof.LibMatProd

noncomputable section

namespace Cert.Layer

open Idealize.ShloMosaic Idealize.ShloMosaic.ValueIdx

variable {M K : Nat}

/-- A one-row array added to every row, then every entry floored at zero. -/
def biasRelu (A : (⟨2, ![M, K]⟩ : Shape).Idx → EReal) (b : (⟨2, ![1, K]⟩ : Shape).Idx → EReal) :
    (⟨2, ![M, K]⟩ : Shape).Idx → EReal :=
  fun j => max (A j + b (ix2 (0 : Fin 1) (j 1))) 0

/-- A one-row array added to every row. -/
def addRow (A : (⟨2, ![M, K]⟩ : Shape).Idx → EReal) (b : (⟨2, ![1, K]⟩ : Shape).Idx → EReal) :
    (⟨2, ![M, K]⟩ : Shape).Idx → EReal :=
  fun j => A j + b (ix2 (0 : Fin 1) (j 1))

theorem biasRelu_apply (A : (⟨2, ![M, K]⟩ : Shape).Idx → EReal) (b : (⟨2, ![1, K]⟩ : Shape).Idx → EReal)
    (p : Fin M) (k : Fin K) : biasRelu A b (ix2 p k) = max (A (ix2 p k) + b (ix2 (0 : Fin 1) k)) 0 := rfl

theorem addRow_apply (A : (⟨2, ![M, K]⟩ : Shape).Idx → EReal) (b : (⟨2, ![1, K]⟩ : Shape).Idx → EReal)
    (p : Fin M) (k : Fin K) : addRow A b (ix2 p k) = A (ix2 p k) + b (ix2 (0 : Fin 1) k) := rfl

end Cert.Layer

end
-- ==== Proof.Region1.lean ====
/-
  The second matrix-product region: the rows of the aggregated features with the bias row added and floored at zero,
  times the layer's weight matrix, ten thousand rows at a time. Grid point t loads rows 10000·t … 10000·t + 9999 of the
  features, the one bias row and the whole weight matrix, and stores the product of the rectified block with the
  weights as the same rows of the result. Rectifying is entry by entry and a row of a product depends only on that row
  of the left operand, so what point t writes back is block t of the whole layer, the ten blocks tile the result, and
  the result array ends holding the layer.
-/
import proofs.«167334_j15204184228223_1_alg».proof.Proof.Gen.KernelIdeal.Frame
import proofs.«167334_j15204184228223_1_alg».proof.Proof.Layer
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx Idealize.ShloMosaic.DotPlain Idealize.ShloMosaic.MatProd Cert.Layer

variable (V : (c : Dev nD) → (b : Ref sig .tc) → Buf (Elt Ideal) ((c : Thread nD τ).loc b))

theorem hz : (![0, 0] : Fin 2 → Nat) = fun _ => 0 := funext fun a => by fin_cases a <;> rfl

/-- The region's dimension numbers are those of a plain matrix product. -/
theorem plain : IsPlain dot_S10000x16_S16x16_S10000x16_1_0_0_1_n_n := ⟨rfl, rfl, rfl, rfl, rfl, rfl⟩

/-- The body's left operand: its block of rows with the bias row added and floored at zero. -/
theorem act_eq (x0 : Vec Ideal S10000x16 .f32) (x1 : Vec Ideal S1x16 .f32) :
    maximumf (addf (shapeCast S10000x16 x0 shapeCasts_S10000x16_S10000x16)
        (broadcastTo S10000x16 (shapeCast S1x16 x1 shapeCasts_S1x16_S1x16) broadcasts_S1x16_S10000x16))
      (broadcast S10000x16 (Scalar.ofBits (F := Ideal) .f32 0x00000000#32)) = biasRelu x0 x1 := by
  rw [shapeCast_self, shapeCast_self]
  funext j
  obtain ⟨p, k, rfl⟩ : ∃ (p : Fin 10000) (k : Fin 16), j = ix2 p k := ⟨j 0, j 1, eq_ix2 j⟩
  show max (x0 (ix2 p k) + broadcastTo S10000x16 x1 broadcasts_S1x16_S10000x16 (ix2 p k)) (Ideal.ofBits .f32 0x00000000#32) = _
  rw [broadcastTo_1b_ab_apply, Ideal.ofBits_zero_f32, biasRelu_apply]

/-- The body's stored value is the product of the rectified block with the weights. -/
theorem pay_apply (x0 : Vec Ideal S10000x16 .f32) (x1 : Vec Ideal S1x16 .f32) (x2 : Vec Ideal S16x16 .f32) (j : S10000x16.Idx) :
    k1_pay1 x0 x1 x2 j = matProd (biasRelu x0 x1) x2 j := by
  unfold k1_pay1
  rw [act_eq]
  exact MatProd.matmul_zero_apply plain none _ _ j

/-- An entry of the layer on a block of rows is the whole layer's entry on the row the block's row is. -/
theorem pay_rows (x0 : Vec Ideal S10000x16 .f32) (x1 : Vec Ideal S1x16 .f32) (x2 : Vec Ideal S16x16 .f32)
    (A : S100000x16.Idx → EReal) (r : S1x16.Idx → EReal) (B : S16x16.Idx → EReal) (y : S10000x16.Idx) (i : S100000x16.Idx)
    (hl : ∀ k : Fin 16, x0 (ix2 (y 0) k) = A (ix2 (i 0) k)) (hb : ∀ k : Fin 16, x1 (ix2 (0 : Fin 1) k) = r (ix2 (0 : Fin 1) k))
    (hr : ∀ k : Fin 16, x2 (ix2 k (y 1)) = B (ix2 k (i 1))) :
    k1_pay1 x0 x1 x2 y = matProd (biasRelu A r) B i :=
  (pay_apply x0 x1 x2 y).trans (Finset.sum_congr rfl fun k _ => by
    show max (x0 (ix2 (y 0) k) + x1 (ix2 (0 : Fin 1) k)) 0 * x2 (ix2 k (y 1)) = max (A (ix2 (i 0) k) + r (ix2 (0 : Fin 1) k)) 0 * B (ix2 k (i 1))
    rw [hl k, hb k, hr k])

/-- The printed index maps over the grid: point t's blocks start at row block t of the features and of the result,
    and at the origin of the bias row and of the weights. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of the layer of the three arrays as the region finds them. -/
theorem flushed (c : Dev nD) (t : Fin cfg1.N) :
    (dat1 V c).flushed 3 t = ((cfg1.win 3).blk t).view.read (Elt Ideal)
      (matProd (biasRelu (V c main_v48) (V c main_v32)) (V c main_arg5)) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x16) hz]
  obtain ⟨e0, e1, e2, e3, e4, e5, e6, e7⟩ := idx_facts t
  funext y
  refine pay_rows (iblk1 V c 0 t) (iblk1 V c 1 t) (iblk1 V c 2 t) (V c main_v48) (V c main_v32) (V c main_arg5) y (((cfg1.win 3).blk t).view.emb y) ?_ ?_ ?_
  · intro k
    show V c main_v48 (((cfg1.win 0).blk t).view.emb (ix2 (y 0) k)) = _
    refine congrArg (V c main_v48) ?_
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 16 + 1 * k.val = k.val; omega
  · intro k
    show V c main_v32 (((cfg1.win 1).blk t).view.emb (ix2 (0 : Fin 1) k)) = _
    refine congrArg (V c main_v32) ?_
    funext a; apply Fin.ext
    match a with
    | ⟨0, _⟩ => show win1_1.index t (0 : Fin 2) * 1 + 1 * 0 = 0; omega
    | ⟨1, _⟩ => show win1_1.index t (1 : Fin 2) * 16 + 1 * k.val = k.val; omega
  · intro k
    show V c main_arg5 (((cfg1.win 2).blk t).view.emb (ix2 k (y 1))) = _
    refine congrArg (V c main_arg5) ?_
    funext a; apply Fin.ext
    match a with
    | ⟨0, _⟩ => show win1_2.index t (0 : Fin 2) * 16 + 1 * k.val = k.val; omega
    | ⟨1, _⟩ => show win1_2.index t (1 : Fin 2) * 16 + 1 * (y 1).val = win1_3.index t (1 : Fin 2) * 16 + 1 * (y 1).val; omega

/-- An index of the result is in point t's block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v49).slice (win1_3.rect t)).set ↔ _
  rw [View.set_slice_whole, Rect.mem_set_unit]
  exact Iff.rfl

/-- The ten row blocks tile the result: row r is in the block of point r / 10000. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : (i 0).val / 10000 < cfg1.N := by show _ < grid1.N; rw [N_1]; omega
  obtain ⟨e0, e1, e2, e3, e4, e5, e6, e7⟩ := idx_facts ⟨(i 0).val / 10000, hN⟩
  refine ⟨⟨(i 0).val / 10000, hN⟩, flush1_3 _, ?_⟩
  rw [mem_blk]
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hN⟩ (1 : Fin 2) * 16 ≤ (i 1).val ∧ (i 1).val < win1_3.index ⟨(i 0).val / 10000, hN⟩ (1 : Fin 2) * 16 + 16
    rw [e7]; omega

/-- THE REGION'S RESULT ARRAY after the region, whatever the contents it is entered from: the layer of the three
    arrays its input windows range over. -/
theorem value (c : Dev nD) (A : S100000x16.Idx → EReal) (r : S1x16.Idx → EReal) (B : S16x16.Idx → EReal)
    (hA : V c main_v48 = A) (hr : V c main_v32 = r) (hB : V c main_arg5 = B) :
    (dat1 V c).arrAt 3 cfg1.N = matProd (biasRelu A r) B := by
  subst hA hr hB
  exact (dat1 V c).arrAt_eq_of_cover 3 _ (fun t _ => flushed V c t) (cover)

end Cert.KernelIdeal.Region1

end
-- ==== Proof.Region2.lean ====
/-
  The third matrix-product region: the rows of the aggregated features with the bias row added and floored at zero,
  times the layer's weight matrix, ten thousand rows at a time. Grid point t loads rows 10000·t … 10000·t + 9999 of the
  features, the one bias row and the whole weight matrix, and stores the product of the rectified block with the
  weights as the same rows of the result. Rectifying is entry by entry and a row of a product depends only on that row
  of the left operand, so what point t writes back is block t of the whole layer, the ten blocks tile the result, and
  the result array ends holding the layer.
-/
import proofs.«167334_j15204184228223_1_alg».proof.Proof.Gen.KernelIdeal.Frame
import proofs.«167334_j15204184228223_1_alg».proof.Proof.Layer
import Idealize.ShloMosaic.Lib.Pipeline.Value
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.ValueIdx Idealize.ShloMosaic.DotPlain Idealize.ShloMosaic.MatProd Cert.Layer

variable (V : (c : Dev nD) → (b : Ref sig .tc) → Buf (Elt Ideal) ((c : Thread nD τ).loc b))

theorem hz : (![0, 0] : Fin 2 → Nat) = fun _ => 0 := funext fun a => by fin_cases a <;> rfl

/-- The region's dimension numbers are those of a plain matrix product. -/
theorem plain : IsPlain dot_S10000x16_S16x16_S10000x16_1_0_0_1_n_n := ⟨rfl, rfl, rfl, rfl, rfl, rfl⟩

/-- The body's left operand: its block of rows with the bias row added and floored at zero. -/
theorem act_eq (x0 : Vec Ideal S10000x16 .f32) (x1 : Vec Ideal S1x16 .f32) :
    maximumf (addf (shapeCast S10000x16 x0 shapeCasts_S10000x16_S10000x16)
        (broadcastTo S10000x16 (shapeCast S1x16 x1 shapeCasts_S1x16_S1x16) broadcasts_S1x16_S10000x16))
      (broadcast S10000x16 (Scalar.ofBits (F := Ideal) .f32 0x00000000#32)) = biasRelu x0 x1 := by
  rw [shapeCast_self, shapeCast_self]
  funext j
  obtain ⟨p, k, rfl⟩ : ∃ (p : Fin 10000) (k : Fin 16), j = ix2 p k := ⟨j 0, j 1, eq_ix2 j⟩
  show max (x0 (ix2 p k) + broadcastTo S10000x16 x1 broadcasts_S1x16_S10000x16 (ix2 p k)) (Ideal.ofBits .f32 0x00000000#32) = _
  rw [broadcastTo_1b_ab_apply, Ideal.ofBits_zero_f32, biasRelu_apply]

/-- The body's stored value is the product of the rectified block with the weights. -/
theorem pay_apply (x0 : Vec Ideal S10000x16 .f32) (x1 : Vec Ideal S1x16 .f32) (x2 : Vec Ideal S16x16 .f32) (j : S10000x16.Idx) :
    k2_pay1 x0 x1 x2 j = matProd (biasRelu x0 x1) x2 j := by
  unfold k2_pay1
  rw [act_eq]
  exact MatProd.matmul_zero_apply plain none _ _ j

/-- An entry of the layer on a block of rows is the whole layer's entry on the row the block's row is. -/
theorem pay_rows (x0 : Vec Ideal S10000x16 .f32) (x1 : Vec Ideal S1x16 .f32) (x2 : Vec Ideal S16x16 .f32)
    (A : S100000x16.Idx → EReal) (r : S1x16.Idx → EReal) (B : S16x16.Idx → EReal) (y : S10000x16.Idx) (i : S100000x16.Idx)
    (hl : ∀ k : Fin 16, x0 (ix2 (y 0) k) = A (ix2 (i 0) k)) (hb : ∀ k : Fin 16, x1 (ix2 (0 : Fin 1) k) = r (ix2 (0 : Fin 1) k))
    (hr : ∀ k : Fin 16, x2 (ix2 k (y 1)) = B (ix2 k (i 1))) :
    k2_pay1 x0 x1 x2 y = matProd (biasRelu A r) B i :=
  (pay_apply x0 x1 x2 y).trans (Finset.sum_congr rfl fun k _ => by
    show max (x0 (ix2 (y 0) k) + x1 (ix2 (0 : Fin 1) k)) 0 * x2 (ix2 k (y 1)) = max (A (ix2 (i 0) k) + r (ix2 (0 : Fin 1) k)) 0 * B (ix2 k (i 1))
    rw [hl k, hb k, hr k])

/-- The printed index maps over the grid: point t's blocks start at row block t of the features and of the result,
    and at the origin of the bias row and of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of the layer of the three arrays as the region finds them. -/
theorem flushed (c : Dev nD) (t : Fin cfg2.N) :
    (dat2 V c).flushed 3 t = ((cfg2.win 3).blk t).view.read (Elt Ideal)
      (matProd (biasRelu (V c main_v62) (V c main_v33)) (V c main_arg7)) := by
  show (cfg2.win 3).cut (grid2.coords t) ((dat2 V c).after 3 t) = _
  rw [after2_3]
  unfold out2_3
  rw [View.canon_unit_zero hz]
  simp only [View.ld_unit_zero (S := S10000x16) hz, View.ld_unit_zero (S := S1x16) hz, View.ld_unit_zero (S := S16x16) hz]
  obtain ⟨e0, e1, e2, e3, e4, e5, e6, e7⟩ := idx_facts t
  funext y
  refine pay_rows (iblk2 V c 0 t) (iblk2 V c 1 t) (iblk2 V c 2 t) (V c main_v62) (V c main_v33) (V c main_arg7) y (((cfg2.win 3).blk t).view.emb y) ?_ ?_ ?_
  · intro k
    show V c main_v62 (((cfg2.win 0).blk t).view.emb (ix2 (y 0) k)) = _
    refine congrArg (V c main_v62) ?_
    funext a; apply Fin.ext
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 16 + 1 * k.val = k.val; omega
  · intro k
    show V c main_v33 (((cfg2.win 1).blk t).view.emb (ix2 (0 : Fin 1) k)) = _
    refine congrArg (V c main_v33) ?_
    funext a; apply Fin.ext
    match a with
    | ⟨0, _⟩ => show win2_1.index t (0 : Fin 2) * 1 + 1 * 0 = 0; omega
    | ⟨1, _⟩ => show win2_1.index t (1 : Fin 2) * 16 + 1 * k.val = k.val; omega
  · intro k
    show V c main_arg7 (((cfg2.win 2).blk t).view.emb (ix2 k (y 1))) = _
    refine congrArg (V c main_arg7) ?_
    funext a; apply Fin.ext
    match a with
    | ⟨0, _⟩ => show win2_2.index t (0 : Fin 2) * 16 + 1 * k.val = k.val; omega
    | ⟨1, _⟩ => show win2_2.index t (1 : Fin 2) * 16 + 1 * (y 1).val = win2_3.index t (1 : Fin 2) * 16 + 1 * (y 1).val; omega

/-- An index of the result is in point t's block iff each coordinate is in the block's range on its axis. -/
theorem mem_blk (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v63).slice (win2_3.rect t)).set ↔ _
  rw [View.set_slice_whole, Rect.mem_set_unit]
  exact Iff.rfl

/-- The ten row blocks tile the result: row r is in the block of point r / 10000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : (i 0).val / 10000 < cfg2.N := by show _ < grid2.N; rw [N_2]; omega
  obtain ⟨e0, e1, e2, e3, e4, e5, e6, e7⟩ := idx_facts ⟨(i 0).val / 10000, hN⟩
  refine ⟨⟨(i 0).val / 10000, hN⟩, flush2_3 _, ?_⟩
  rw [mem_blk]
  intro a
  match a with
  | ⟨0, _⟩ =>
    show win2_3.index ⟨(i 0).val / 10000, hN⟩ (0 : Fin 2) * 10000 ≤ (i 0).val ∧ (i 0).val < win2_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, hN⟩ (1 : Fin 2) * 16 ≤ (i 1).val ∧ (i 1).val < win2_3.index ⟨(i 0).val / 10000, hN⟩ (1 : Fin 2) * 16 + 16
    rw [e7]; omega

/-- THE REGION'S RESULT ARRAY after the region, whatever the contents it is entered from: the layer of the three
    arrays its input windows range over. -/
theorem value (c : Dev nD) (A : S100000x16.Idx → EReal) (r : S1x16.Idx → EReal) (B : S16x16.Idx → EReal)
    (hA : V c main_v62 = A) (hr : V c main_v33 = r) (hB : V c main_arg7 = B) :
    (dat2 V c).arrAt 3 cfg2.N = matProd (biasRelu A r) B := by
  subst hA hr hB
  exact (dat2 V c).arrAt_eq_of_cover 3 _ (fun t _ => flushed V c t) (cover)

end Cert.KernelIdeal.Region2

end
-- ==== Proof.Region3.lean ====
/-
  The last matrix-product region: the pooled rows times the classifier's weights, the last bias row added to every
  row — one grid point, every window its whole array. So what the one point writes back is the whole result, and the
  result array ends holding the product with the bias row added.
-/
import proofs.«167334_j15204184228223_1_alg».proof.Proof.Gen.KernelIdeal.Frame
import proofs.«167334_j15204184228223_1_alg».proof.Proof.Layer
import Idealize.ShloMosaic.Lib.Pipeline.Value
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.ValueIdx Idealize.ShloMosaic.DotPlain Idealize.ShloMosaic.MatProd Cert.Layer

variable (V : (c : Dev nD) → (b : Ref sig .tc) → Buf (Elt Ideal) ((c : Thread nD τ).loc b))

theorem hz : (![0, 0] : Fin 2 → Nat) = fun _ => 0 := funext fun a => by fin_cases a <;> rfl

/-- The region's dimension numbers are those of a plain matrix product. -/
theorem plain : IsPlain dot_S512x16_S16x10_S512x10_1_0_0_1_n_n := ⟨rfl, rfl, rfl, rfl, rfl, rfl⟩

/-- The body's stored value: the product of its first two blocks with the one-row third added to every row. -/
theorem pay_apply (x0 : Vec Ideal S512x16 .f32) (x1 : Vec Ideal S16x10 .f32) (x2 : Vec Ideal S1x10 .f32) (j : S512x10.Idx) :
    k3_pay1 x0 x1 x2 j = addRow (matProd x0 x1) x2 j := by
  obtain ⟨p, k, rfl⟩ : ∃ (p : Fin 512) (k : Fin 10), j = ix2 p k := ⟨j 0, j 1, eq_ix2 j⟩
  unfold k3_pay1
  rw [shapeCast_self, shapeCast_self]
  show matmul dot_S512x16_S16x10_S512x10_1_0_0_1_n_n none (truncf .bf16 x0 bitsLt_bf16_f32) (truncf .bf16 x1 bitsLt_bf16_f32)
        (constant (F := Ideal) S512x10 .f32 0x00000000#32) (ix2 p k)
      + broadcastTo S512x10 x2 broadcasts_S1x10_S512x10 (ix2 p k) = _
  rw [MatProd.matmul_zero_apply plain none _ _ (ix2 p k), broadcastTo_1b_ab_apply, addRow_apply]
  rfl

/-- The same with the three blocks read off three arrays entry by entry. -/
theorem pay_whole (x0 : Vec Ideal S512x16 .f32) (x1 : Vec Ideal S16x10 .f32) (x2 : Vec Ideal S1x10 .f32)
    (A : S512x16.Idx → EReal) (B : S16x10.Idx → EReal) (r : S1x10.Idx → EReal) (y : S512x10.Idx) (i : S512x10.Idx)
    (hl : ∀ k : Fin 16, x0 (ix2 (y 0) k) = A (ix2 (i 0) k)) (hr : ∀ k : Fin 16, x1 (ix2 k (y 1)) = B (ix2 k (i 1)))
    (hb : x2 (ix2 (0 : Fin 1) (y 1)) = r (ix2 (0 : Fin 1) (i 1))) :
    k3_pay1 x0 x1 x2 y = addRow (matProd A B) r i := by
  rw [pay_apply]
  show (∑ k : Fin 16, x0 (ix2 (y 0) k) * x1 (ix2 k (y 1))) + x2 (ix2 (0 : Fin 1) (y 1))
      = (∑ k : Fin 16, A (ix2 (i 0) k) * B (ix2 k (i 1))) + r (ix2 (0 : Fin 1) (i 1))
  rw [hb]
  exact congrArg (· + r (ix2 (0 : Fin 1) (i 1))) (Finset.sum_congr rfl fun k _ => by rw [hl k, hr k])

/-- The printed index maps over the one-point grid: every block starts at its array's origin. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- WHAT THE POINT WRITES BACK is the whole last layer of the three arrays as the region finds them. -/
theorem flushed (c : Dev nD) (t : Fin cfg3.N) :
    (dat3 V c).flushed 3 t = ((cfg3.win 3).blk t).view.read (Elt Ideal)
      (addRow (matProd (V c main_v82) (V c main_arg9)) (V c main_v34)) := by
  show (cfg3.win 3).cut (grid3.coords t) ((dat3 V c).after 3 t) = _
  rw [after3_3]
  unfold out3_3
  rw [View.canon_unit_zero hz]
  simp only [View.ld_unit_zero (S := S512x16) hz, View.ld_unit_zero (S := S16x10) hz, View.ld_unit_zero (S := S1x10) hz]
  obtain ⟨e0, e1, e2, e3, e4, e5, e6, e7⟩ := idx_facts t
  funext y
  refine pay_whole (iblk3 V c 0 t) (iblk3 V c 1 t) (iblk3 V c 2 t) (V c main_v82) (V c main_arg9) (V c main_v34) y (((cfg3.win 3).blk t).view.emb y) ?_ ?_ ?_
  · intro k
    show V c main_v82 (((cfg3.win 0).blk t).view.emb (ix2 (y 0) k)) = _
    refine congrArg (V c main_v82) ?_
    funext a; apply Fin.ext
    match a with
    | ⟨0, _⟩ => show win3_0.index t (0 : Fin 2) * 512 + 1 * (y 0).val = win3_3.index t (0 : Fin 2) * 512 + 1 * (y 0).val; omega
    | ⟨1, _⟩ => show win3_0.index t (1 : Fin 2) * 16 + 1 * k.val = k.val; omega
  · intro k
    show V c main_arg9 (((cfg3.win 1).blk t).view.emb (ix2 k (y 1))) = _
    refine congrArg (V c main_arg9) ?_
    funext a; apply Fin.ext
    match a with
    | ⟨0, _⟩ => show win3_1.index t (0 : Fin 2) * 16 + 1 * k.val = k.val; omega
    | ⟨1, _⟩ => show win3_1.index t (1 : Fin 2) * 10 + 1 * (y 1).val = win3_3.index t (1 : Fin 2) * 10 + 1 * (y 1).val; omega
  · show V c main_v34 (((cfg3.win 2).blk t).view.emb (ix2 (0 : Fin 1) (y 1))) = _
    refine congrArg (V c main_v34) ?_
    funext a; apply Fin.ext
    match a with
    | ⟨0, _⟩ => show win3_2.index t (0 : Fin 2) * 1 + 1 * 0 = 0; omega
    | ⟨1, _⟩ => show win3_2.index t (1 : Fin 2) * 10 + 1 * (y 1).val = win3_3.index t (1 : Fin 2) * 10 + 1 * (y 1).val; omega

/-- An index of the result is in the point's block iff each coordinate is in the block's range on its axis. -/
theorem mem_blk (t : Fin cfg3.N) (i : S512x10.Idx) :
    i ∈ ((cfg3.win 3).blk t).view.set ↔ ∀ a : Fin 2, win3_3.index t a * S512x10.size a ≤ (i a).val ∧ (i a).val < win3_3.index t a * S512x10.size a + S512x10.size a := by
  show i ∈ ((View.whole main_v83).slice (win3_3.rect t)).set ↔ _
  rw [View.set_slice_whole, Rect.mem_set_unit]
  exact Iff.rfl

/-- The one block is the whole result. -/
theorem cover (i : S512x10.Idx) :
    ∃ t : Fin cfg3.N, (cfg3.win 3).flush t = true ∧ i ∈ ((cfg3.win 3).blk t).view.set := by
  have hi0 : (i 0).val < 512 := (i 0).isLt
  have hi1 : (i 1).val < 10 := (i 1).isLt
  obtain ⟨e0, e1, e2, e3, e4, e5, e6, e7⟩ := idx_facts t3_0
  refine ⟨t3_0, flush3_3 _, ?_⟩
  rw [mem_blk]
  intro a
  match a with
  | ⟨0, _⟩ =>
    show win3_3.index t3_0 (0 : Fin 2) * 512 ≤ (i 0).val ∧ (i 0).val < win3_3.index t3_0 (0 : Fin 2) * 512 + 512
    rw [e6]; omega
  | ⟨1, _⟩ =>
    show win3_3.index t3_0 (1 : Fin 2) * 10 ≤ (i 1).val ∧ (i 1).val < win3_3.index t3_0 (1 : Fin 2) * 10 + 10
    rw [e7]; omega

/-- THE REGION'S RESULT ARRAY after the region, whatever the contents it is entered from. -/
theorem value (c : Dev nD) (A : S512x16.Idx → EReal) (B : S16x10.Idx → EReal) (r : S1x10.Idx → EReal)
    (hA : V c main_v82 = A) (hB : V c main_arg9 = B) (hr : V c main_v34 = r) :
    (dat3 V c).arrAt 3 cfg3.N = addRow (matProd A B) r := by
  subst hA hB hr
  exact (dat3 V c).arrAt_eq_of_cover 3 _ (fun t _ => flushed V c t) (cover)

end Cert.KernelIdeal.Region3

end
-- ==== Proof.RefLayers.lean ====
/-
  The reference's dense stages as the layer functions. Its three plain dot products are matrix products; its
  "add the bias vector broadcast over the rows, then take the maximum with a zero array" is `biasRelu` against the
  bias laid out as one row; and its last "add the broadcast bias" is `addRow`. The bias row here is the reference's
  own one-row broadcast of the bias vector; that it holds the same entries as the kernel's reshape of the vector is
  shown where the two meet.
-/
import proofs.«167334_j15204184228223_1_alg».proof.Proof.RefReadP
import proofs.«167334_j15204184228223_1_alg».proof.Proof.Layer
import Idealize.ShloMosaic.Lib.ValueLayout

noncomputable section

namespace Cert.ReferenceIdeal.Layers

open Cert.ReferenceIdeal Cert.ReferenceIdeal.Gen Cert.ReferenceIdeal.ReadP
open Idealize.ShloMosaic Idealize.ShloMosaic.ValueIdx Idealize.ShloMosaic.DotPlain Idealize.ShloMosaic.MatProd Cert.Layer

theorem plainA : IsPlain dot_S100000x128_S128x16_S100000x16_1_0_0_1_n_n := ⟨rfl, rfl, rfl, rfl, rfl, rfl⟩
theorem plainB : IsPlain dot_S100000x16_S16x16_S100000x16_1_0_0_1_n_n := ⟨rfl, rfl, rfl, rfl, rfl, rfl⟩
theorem plainC : IsPlain dot_S512x16_S16x10_S512x10_1_0_0_1_n_n := ⟨rfl, rfl, rfl, rfl, rfl, rfl⟩

/-- A bias vector broadcast to one row reads the vector. -/
theorem row16_apply (b : (⟨S16, .f32⟩ : BufTy).Contents (Elt Ideal)) (u : Fin 1) (k : Fin 16) :
    broadcastInDim S1x16 ![1] bcast_S16_S1x16_1 b (ix2 u k) = b (ix1 k) :=
  broadcastInDim_apply _ bcast_S16_S1x16_1 b (ix2 u k) (ix1 k) (fun a => match a with
    | ⟨0, _⟩ => by show k.val = if (16 : Nat) = 1 then 0 else k.val; rw [if_neg (by decide)])

theorem row10_apply (b : (⟨S10, .f32⟩ : BufTy).Contents (Elt Ideal)) (u : Fin 1) (k : Fin 10) :
    broadcastInDim S1x10 ![1] bcast_S10_S1x10_1 b (ix2 u k) = b (ix1 k) :=
  broadcastInDim_apply _ bcast_S10_S1x10_1 b (ix2 u k) (ix1 k) (fun a => match a with
    | ⟨0, _⟩ => by show k.val = if (10 : Nat) = 1 then 0 else k.val; rw [if_neg (by decide)])

/-- One row broadcast over a hundred thousand rows reads the row. -/
theorem rows16_apply (r : (⟨S1x16, .f32⟩ : BufTy).Contents (Elt Ideal)) (p : Fin 100000) (k : Fin 16) :
    broadcastInDim S100000x16 ![0, 1] bcast_S1x16_S100000x16_0_1 r (ix2 p k) = r (ix2 (0 : Fin 1) k) :=
  broadcastInDim_apply _ bcast_S1x16_S100000x16_0_1 r (ix2 p k) (ix2 (0 : Fin 1) k) (fun a => match a with
    | ⟨0, _⟩ => by show 0 = if (1 : Nat) = 1 then 0 else p.val; rw [if_pos rfl]
    | ⟨1, _⟩ => by show k.val = if (16 : Nat) = 1 then 0 else k.val; rw [if_neg (by decide)])

theorem rows10_apply (r : (⟨S1x10, .f32⟩ : BufTy).Contents (Elt Ideal)) (p : Fin 512) (k : Fin 10) :
    broadcastInDim S512x10 ![0, 1] bcast_S1x10_S512x10_0_1 r (ix2 p k) = r (ix2 (0 : Fin 1) k) :=
  broadcastInDim_apply _ bcast_S1x10_S512x10_0_1 r (ix2 p k) (ix2 (0 : Fin 1) k) (fun a => match a with
    | ⟨0, _⟩ => by show 0 = if (1 : Nat) = 1 then 0 else p.val; rw [if_pos rfl]
    | ⟨1, _⟩ => by show k.val = if (10 : Nat) = 1 then 0 else k.val; rw [if_neg (by decide)])

/-- The zero array the rectifier compares with. -/
theorem zeros_apply (j : S100000x16.Idx) :
    broadcastInDim S100000x16 ![] bcast_S_S100000x16 (constant (F := Ideal) S_ .f32 0x00000000#32) j = 0 := by
  rw [broadcastInDim_apply _ bcast_S_S100000x16 (constant (F := Ideal) S_ .f32 0x00000000#32) j ix0 (fun a => a.elim0)]
  show Ideal.ofBits .f32 0x00000000#32 = 0
  exact Ideal.ofBits_zero_f32

/-- Bias added on every row and the maximum with the zero array: `biasRelu`. -/
theorem relu_bias (A : (⟨S100000x16, .f32⟩ : BufTy).Contents (Elt Ideal)) (r : (⟨S1x16, .f32⟩ : BufTy).Contents (Elt Ideal)) :
    maximumf (addf A (broadcastInDim S100000x16 ![0, 1] bcast_S1x16_S100000x16_0_1 r))
        (broadcastInDim S100000x16 ![] bcast_S_S100000x16 (constant (F := Ideal) S_ .f32 0x00000000#32))
      = biasRelu A r := by
  funext j
  obtain ⟨p, k, rfl⟩ : ∃ (p : Fin 100000) (k : Fin 16), j = ix2 p k := ⟨j 0, j 1, eq_ix2 j⟩
  show max (A (ix2 p k) + broadcastInDim S100000x16 ![0, 1] bcast_S1x16_S100000x16_0_1 r (ix2 p k))
      (broadcastInDim S100000x16 ![] bcast_S_S100000x16 (constant (F := Ideal) S_ .f32 0x00000000#32) (ix2 p k)) = _
  rw [rows16_apply, zeros_apply, biasRelu_apply]

/-- The first layer's product. -/
theorem v32_eq (x0 : (⟨S100000x128, .f32⟩ : BufTy).Contents (Elt Ideal)) (x3 : (⟨S128x16, .f32⟩ : BufTy).Contents (Elt Ideal)) :
    val_main_v32 (F := Ideal) x0 x3 = matProd x0 x3 := by
  unfold val_main_v32
  exact dotGeneral_eq plainA none x0 x3

/-- The second layer: the rectified first aggregation against W₂. -/
theorem v50_eq (x0 : (⟨S100000x128, .f32⟩ : BufTy).Contents (Elt Ideal)) (x1 : (⟨S2x3200000, .i32⟩ : BufTy).Contents (Elt Ideal)) (x3 : (⟨S128x16, .f32⟩ : BufTy).Contents (Elt Ideal)) (x4 : (⟨S16, .f32⟩ : BufTy).Contents (Elt Ideal)) (x5 : (⟨S16x16, .f32⟩ : BufTy).Contents (Elt Ideal)) :
    val_main_v50 (F := Ideal) x0 x1 x3 x4 x5
      = matProd (biasRelu (val_main_v45 (F := Ideal) x0 x1 x3) (val_main_v46 (F := Ideal) x4)) x5 := by
  unfold val_main_v50
  rw [dotGeneral_eq plainB none _ x5]
  refine congrArg (fun a => matProd a x5) ?_
  unfold val_main_v49 val_main_v48 val_main_v47 val_main_call1_v0 val_main_call1_cst
  exact relu_bias _ _

/-- The third layer: the rectified second aggregation against W₃. -/
theorem v68_eq (x0 : (⟨S100000x128, .f32⟩ : BufTy).Contents (Elt Ideal)) (x1 : (⟨S2x3200000, .i32⟩ : BufTy).Contents (Elt Ideal)) (x3 : (⟨S128x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) :
    val_main_v68 (F := Ideal) x0 x1 x3 x4 x5 x6 x7
      = matProd (biasRelu (val_main_v63 (F := Ideal) x0 x1 x3 x4 x5) (val_main_v64 (F := Ideal) x6)) x7 := by
  unfold val_main_v68
  rw [dotGeneral_eq plainB none _ x7]
  refine congrArg (fun a => matProd a x7) ?_
  unfold val_main_v67 val_main_v66 val_main_v65 val_main_call2_v0 val_main_call2_cst
  exact relu_bias _ _

/-- The last layer: the pooled rows against W_lin, the last bias on every row. -/
theorem v91_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x10, .f32⟩ : BufTy).Contents (Elt Ideal)) (x10 : (⟨S10, .f32⟩ : BufTy).Contents (Elt Ideal)) :
    val_main_v91 (F := Ideal) x0 x1 x2 x3 x4 x5 x6 x7 x8 x9 x10
      = addRow (matProd (val_main_v87 (F := Ideal) x0 x1 x2 x3 x4 x5 x6 x7 x8) x9) (val_main_v89 (F := Ideal) x10) := by
  unfold val_main_v91 val_main_v88 val_main_v90
  rw [dotGeneral_eq plainC none _ x9]
  funext j
  obtain ⟨p, k, rfl⟩ : ∃ (p : Fin 512) (k : Fin 10), j = ix2 p k := ⟨j 0, j 1, eq_ix2 j⟩
  show matProd (val_main_v87 (F := Ideal) x0 x1 x2 x3 x4 x5 x6 x7 x8) x9 (ix2 p k)
      + broadcastInDim S512x10 ![0, 1] bcast_S1x10_S512x10_0_1 (val_main_v89 (F := Ideal) x10) (ix2 p k) = _
  rw [rows10_apply, addRow_apply]

/-- A sixteen-entry vector reshaped to one row holds what its one-row broadcast holds. -/
theorem row16_eq (b : (⟨S16, .f32⟩ : BufTy).Contents (Elt Ideal)) (h : S16.ShapeCasts S1x16) :
    shapeCast S1x16 b h = val_main_v46 (F := Ideal) b := by
  funext j
  obtain ⟨u, k, rfl⟩ : ∃ (u : Fin 1) (k : Fin 16), j = ix2 u k := ⟨j 0, j 1, eq_ix2 j⟩
  unfold val_main_v46
  rw [shapeCast_a_1a_apply, row16_apply]

theorem row16_eq' (b : (⟨S16, .f32⟩ : BufTy).Contents (Elt Ideal)) (h : S16.ShapeCasts S1x16) :
    shapeCast S1x16 b h = val_main_v64 (F := Ideal) b := by
  funext j
  obtain ⟨u, k, rfl⟩ : ∃ (u : Fin 1) (k : Fin 16), j = ix2 u k := ⟨j 0, j 1, eq_ix2 j⟩
  unfold val_main_v64
  rw [shapeCast_a_1a_apply, row16_apply]

/-- A ten-entry vector reshaped to one row holds what its one-row broadcast holds. -/
theorem row10_eq (b : (⟨S10, .f32⟩ : BufTy).Contents (Elt Ideal)) (h : S10.ShapeCasts S1x10) :
    shapeCast S1x10 b h = val_main_v89 (F := Ideal) b := by
  funext j
  obtain ⟨u, k, rfl⟩ : ∃ (u : Fin 1) (k : Fin 10), j = ix2 u k := ⟨j 0, j 1, eq_ix2 j⟩
  unfold val_main_v89
  rw [shapeCast_a_1a_apply, row10_apply]

end Cert.ReferenceIdeal.Layers

end
-- ==== Proof.Chain.lean ====
/-
  The kernel program's fold through its host stretches and its four regions, opened one boundary at a time. At each
  boundary the buffers read later — the two index vectors, the edge weights, the three bias rows, the arguments, and
  the newest layer — are identified with stages of the reference: a host stretch by being the same operations, a
  region by being the same dense layer (a product of rows; bias and rectifier entry by entry). The last boundary's
  contents at the result buffer are then the reference's last stage of the same arguments.
-/
import proofs.«167334_j15204184228223_1_alg».proof.Proof.KernelRun
import proofs.«167334_j15204184228223_1_alg».proof.Proof.Keeps
import proofs.«167334_j15204184228223_1_alg».proof.Proof.Stretches
import proofs.«167334_j15204184228223_1_alg».proof.Proof.Region0
import proofs.«167334_j15204184228223_1_alg».proof.Proof.Region1
import proofs.«167334_j15204184228223_1_alg».proof.Proof.Region2
import proofs.«167334_j15204184228223_1_alg».proof.Proof.Region3
import proofs.«167334_j15204184228223_1_alg».proof.Proof.RefLayers

set_option maxRecDepth 16384

noncomputable section

namespace Cert.KernelIdeal.Chain

open Cert.KernelIdeal Cert.KernelIdeal.Gen Cert.KernelIdeal.Keeps Cert.KernelIdeal.Stretches Cert.ReferenceIdeal.ReadP
open Idealize.ShloMosaic Idealize.ShloMosaic.TcCoe Idealize.SL.Sem Idealize.ShloMosaic.StableHlo
open Cert.ReferenceIdeal.Layers

variable (m : (ℓ : Loc nD τ sig) → Buf (Elt Ideal) ℓ) (ρ : Dev nD → PrngReg) (c : Dev nD)

/-! ## The arguments, wherever they are read -/

theorem arg0_at3 : W3 m ρ c (Proc.devRef .tc main_arg0) = (m ((c : Thread nD τ).loc main_arg0)) :=
  ((W3_of m ρ c main_arg0 (by decide)).trans ((W2_of m ρ c main_arg0 (by decide)).trans ((W1_of m ρ c main_arg0 (by decide))))).trans (W0_eq m ρ c main_arg0)
theorem arg3_at3 : W3 m ρ c (Proc.devRef .tc main_arg3) = (m ((c : Thread nD τ).loc main_arg3)) :=
  ((W3_of m ρ c main_arg3 (by decide)).trans ((W2_of m ρ c main_arg3 (by decide)).trans ((W1_of m ρ c main_arg3 (by decide))))).trans (W0_eq m ρ c main_arg3)
theorem arg4_at2 : W2 m ρ c (Proc.devRef .tc main_arg4) = (m ((c : Thread nD τ).loc main_arg4)) :=
  ((W2_of m ρ c main_arg4 (by decide)).trans ((W1_of m ρ c main_arg4 (by decide)))).trans (W0_eq m ρ c main_arg4)
theorem arg6_at2 : W2 m ρ c (Proc.devRef .tc main_arg6) = (m ((c : Thread nD τ).loc main_arg6)) :=
  ((W2_of m ρ c main_arg6 (by decide)).trans ((W1_of m ρ c main_arg6 (by decide)))).trans (W0_eq m ρ c main_arg6)
theorem arg10_at2 : W2 m ρ c (Proc.devRef .tc main_arg10) = (m ((c : Thread nD τ).loc main_arg10)) :=
  ((W2_of m ρ c main_arg10 (by decide)).trans ((W1_of m ρ c main_arg10 (by decide)))).trans (W0_eq m ρ c main_arg10)
theorem arg5_at5 : W5 m ρ c (Proc.devRef .tc main_arg5) = (m ((c : Thread nD τ).loc main_arg5)) :=
  ((W5_of m ρ c main_arg5 (by decide)).trans ((W4_of_ne m ρ c main_arg5 (by decide)).trans ((W3_of m ρ c main_arg5 (by decide)).trans ((W2_of m ρ c main_arg5 (by decide)).trans ((W1_of m ρ c main_arg5 (by decide))))))).trans (W0_eq m ρ c main_arg5)
theorem arg7_at7 : W7 m ρ c (Proc.devRef .tc main_arg7) = (m ((c : Thread nD τ).loc main_arg7)) :=
  ((W7_of m ρ c main_arg7 (by decide)).trans ((W6_of_ne m ρ c main_arg7 (by decide)).trans ((W5_of m ρ c main_arg7 (by decide)).trans ((W4_of_ne m ρ c main_arg7 (by decide)).trans ((W3_of m ρ c main_arg7 (by decide)).trans ((W2_of m ρ c main_arg7 (by decide)).trans ((W1_of m ρ c main_arg7 (by decide))))))))).trans (W0_eq m ρ c main_arg7)
theorem arg8_at8 : W8 m ρ c (Proc.devRef .tc main_arg8) = (m ((c : Thread nD τ).loc main_arg8)) :=
  ((W8_of_ne m ρ c main_arg8 (by decide)).trans ((W7_of m ρ c main_arg8 (by decide)).trans ((W6_of_ne m ρ c main_arg8 (by decide)).trans ((W5_of m ρ c main_arg8 (by decide)).trans ((W4_of_ne m ρ c main_arg8 (by decide)).trans ((W3_of m ρ c main_arg8 (by decide)).trans ((W2_of m ρ c main_arg8 (by decide)).trans ((W1_of m ρ c main_arg8 (by decide)))))))))).trans (W0_eq m ρ c main_arg8)
theorem arg2_at8 : W8 m ρ c (Proc.devRef .tc main_arg2) = (m ((c : Thread nD τ).loc main_arg2)) :=
  ((W8_of_ne m ρ c main_arg2 (by decide)).trans ((W7_of m ρ c main_arg2 (by decide)).trans ((W6_of_ne m ρ c main_arg2 (by decide)).trans ((W5_of m ρ c main_arg2 (by decide)).trans ((W4_of_ne m ρ c main_arg2 (by decide)).trans ((W3_of m ρ c main_arg2 (by decide)).trans ((W2_of m ρ c main_arg2 (by decide)).trans ((W1_of m ρ c main_arg2 (by decide)))))))))).trans (W0_eq m ρ c main_arg2)
theorem arg9_at9 : W9 m ρ c (Proc.devRef .tc main_arg9) = (m ((c : Thread nD τ).loc main_arg9)) :=
  ((W9_of m ρ c main_arg9 (by decide)).trans ((W8_of_ne m ρ c main_arg9 (by decide)).trans ((W7_of m ρ c main_arg9 (by decide)).trans ((W6_of_ne m ρ c main_arg9 (by decide)).trans ((W5_of m ρ c main_arg9 (by decide)).trans ((W4_of_ne m ρ c main_arg9 (by decide)).trans ((W3_of m ρ c main_arg9 (by decide)).trans ((W2_of m ρ c main_arg9 (by decide)).trans ((W1_of m ρ c main_arg9 (by decide))))))))))).trans (W0_eq m ρ c main_arg9)

/-! ## The start -/

theorem v3_at1 : W1 m ρ c (Proc.devRef .tc main_v3) = val_main_v3 (F := Ideal) (m ((c : Thread nD τ).loc main_arg1)) := first_v3 (W0 m ρ c)
theorem v6_at1 : W1 m ρ c (Proc.devRef .tc main_v6) = val_main_v6 (F := Ideal) (m ((c : Thread nD τ).loc main_arg1)) := first_v6 (W0 m ρ c)
theorem v12_at1 : W1 m ρ c (Proc.devRef .tc main_v12) = val_main_v12 (F := Ideal) (m ((c : Thread nD τ).loc main_arg1)) := first_v12 (W0 m ρ c)
theorem v15_at1 : W1 m ρ c (Proc.devRef .tc main_v15) = val_main_v15 (F := Ideal) (m ((c : Thread nD τ).loc main_arg1)) := first_v15 (W0 m ρ c)
theorem cst3_at1 : W1 m ρ c (Proc.devRef .tc main_cst_3) = val_main_cst_3 (F := Ideal) := first_cst3 (W0 m ρ c)
theorem v16_at2 : W2 m ρ c (Proc.devRef .tc main_v16) = val_main_v16 (F := Ideal) (m ((c : Thread nD τ).loc main_arg1)) :=
  where_v16 (W1 m ρ c) (m ((c : Thread nD τ).loc main_arg1)) (v12_at1 m ρ c) (v15_at1 m ρ c) (cst3_at1 m ρ c)
theorem v3_at2 : W2 m ρ c (Proc.devRef .tc main_v3) = val_main_v3 (F := Ideal) (m ((c : Thread nD τ).loc main_arg1)) := ((W2_of m ρ c main_v3 (by decide))).trans (v3_at1 m ρ c)
theorem v6_at2 : W2 m ρ c (Proc.devRef .tc main_v6) = val_main_v6 (F := Ideal) (m ((c : Thread nD τ).loc main_arg1)) := ((W2_of m ρ c main_v6 (by decide))).trans (v6_at1 m ρ c)
theorem v31_at3 : W3 m ρ c (Proc.devRef .tc main_v31) = val_main_v31 (F := Ideal) (m ((c : Thread nD τ).loc main_arg1)) :=
  weights_v31 (W2 m ρ c) (m ((c : Thread nD τ).loc main_arg1)) (v3_at2 m ρ c) (v6_at2 m ρ c) (v16_at2 m ρ c)
theorem v3_at3 : W3 m ρ c (Proc.devRef .tc main_v3) = val_main_v3 (F := Ideal) (m ((c : Thread nD τ).loc main_arg1)) := ((W3_of m ρ c main_v3 (by decide))).trans (v3_at2 m ρ c)
theorem v6_at3 : W3 m ρ c (Proc.devRef .tc main_v6) = val_main_v6 (F := Ideal) (m ((c : Thread nD τ).loc main_arg1)) := ((W3_of m ρ c main_v6 (by decide))).trans (v6_at2 m ρ c)

/-- The first bias, reshaped to one row, holds what the reference's one-row broadcast of it holds. -/
theorem row32_at3 : W3 m ρ c (Proc.devRef .tc main_v32) = val_main_v46 (F := Ideal) (m ((c : Thread nD τ).loc main_arg4)) :=
  (row_v32 (W2 m ρ c)).trans ((congrArg (fun b : (⟨S16, .f32⟩ : BufTy).Contents (Elt Ideal) => shapeCast S1x16 b shapeCasts_S16_S1x16) (arg4_at2 m ρ c)).trans
    (row16_eq (m ((c : Thread nD τ).loc main_arg4)) _))
theorem row33_at3 : W3 m ρ c (Proc.devRef .tc main_v33) = val_main_v64 (F := Ideal) (m ((c : Thread nD τ).loc main_arg6)) :=
  (row_v33 (W2 m ρ c)).trans ((congrArg (fun b : (⟨S16, .f32⟩ : BufTy).Contents (Elt Ideal) => shapeCast S1x16 b shapeCasts_S16_S1x16) (arg6_at2 m ρ c)).trans
    (row16_eq' (m ((c : Thread nD τ).loc main_arg6)) _))
theorem row34_at3 : W3 m ρ c (Proc.devRef .tc main_v34) = val_main_v89 (F := Ideal) (m ((c : Thread nD τ).loc main_arg10)) :=
  (row_v34 (W2 m ρ c)).trans ((congrArg (fun b : (⟨S10, .f32⟩ : BufTy).Contents (Elt Ideal) => shapeCast S1x10 b shapeCasts_S10_S1x10) (arg10_at2 m ρ c)).trans
    (row10_eq (m ((c : Thread nD τ).loc main_arg10)) _))

/-! ## What is computed once stays: the index vectors, the edge weights and the bias rows at the later boundaries -/

theorem v3_at4 : W4 m ρ c (Proc.devRef .tc main_v3) = val_main_v3 (F := Ideal) (m ((c : Thread nD τ).loc main_arg1)) := ((W4_of_ne m ρ c main_v3 (by decide))).trans (v3_at3 m ρ c)
theorem v6_at4 : W4 m ρ c (Proc.devRef .tc main_v6) = val_main_v6 (F := Ideal) (m ((c : Thread nD τ).loc main_arg1)) := ((W4_of_ne m ρ c main_v6 (by decide))).trans (v6_at3 m ρ c)
theorem v31_at4 : W4 m ρ c (Proc.devRef .tc main_v31) = val_main_v31 (F := Ideal) (m ((c : Thread nD τ).loc main_arg1)) := ((W4_of_ne m ρ c main_v31 (by decide))).trans (v31_at3 m ρ c)
theorem v3_at6 : W6 m ρ c (Proc.devRef .tc main_v3) = val_main_v3 (F := Ideal) (m ((c : Thread nD τ).loc main_arg1)) := ((W6_of_ne m ρ c main_v3 (by decide)).trans ((W5_of m ρ c main_v3 (by decide)).trans ((W4_of_ne m ρ c main_v3 (by decide))))).trans (v3_at3 m ρ c)
theorem v6_at6 : W6 m ρ c (Proc.devRef .tc main_v6) = val_main_v6 (F := Ideal) (m ((c : Thread nD τ).loc main_arg1)) := ((W6_of_ne m ρ c main_v6 (by decide)).trans ((W5_of m ρ c main_v6 (by decide)).trans ((W4_of_ne m ρ c main_v6 (by decide))))).trans (v6_at3 m ρ c)
theorem v31_at6 : W6 m ρ c (Proc.devRef .tc main_v31) = val_main_v31 (F := Ideal) (m ((c : Thread nD τ).loc main_arg1)) := ((W6_of_ne m ρ c main_v31 (by decide)).trans ((W5_of m ρ c main_v31 (by decide)).trans ((W4_of_ne m ρ c main_v31 (by decide))))).trans (v31_at3 m ρ c)
theorem v3_at8 : W8 m ρ c (Proc.devRef .tc main_v3) = val_main_v3 (F := Ideal) (m ((c : Thread nD τ).loc main_arg1)) := ((W8_of_ne m ρ c main_v3 (by decide)).trans ((W7_of m ρ c main_v3 (by decide)).trans ((W6_of_ne m ρ c main_v3 (by decide)).trans ((W5_of m ρ c main_v3 (by decide)).trans ((W4_of_ne m ρ c main_v3 (by decide))))))).trans (v3_at3 m ρ c)
theorem v6_at8 : W8 m ρ c (Proc.devRef .tc main_v6) = val_main_v6 (F := Ideal) (m ((c : Thread nD τ).loc main_arg1)) := ((W8_of_ne m ρ c main_v6 (by decide)).trans ((W7_of m ρ c main_v6 (by decide)).trans ((W6_of_ne m ρ c main_v6 (by decide)).trans ((W5_of m ρ c main_v6 (by decide)).trans ((W4_of_ne m ρ c main_v6 (by decide))))))).trans (v6_at3 m ρ c)
theorem v31_at8 : W8 m ρ c (Proc.devRef .tc main_v31) = val_main_v31 (F := Ideal) (m ((c : Thread nD τ).loc main_arg1)) := ((W8_of_ne m ρ c main_v31 (by decide)).trans ((W7_of m ρ c main_v31 (by decide)).trans ((W6_of_ne m ρ c main_v31 (by decide)).trans ((W5_of m ρ c main_v31 (by decide)).trans ((W4_of_ne m ρ c main_v31 (by decide))))))).trans (v31_at3 m ρ c)
theorem row32_at5 : W5 m ρ c (Proc.devRef .tc main_v32) = val_main_v46 (F := Ideal) (m ((c : Thread nD τ).loc main_arg4)) := ((W5_of m ρ c main_v32 (by decide)).trans ((W4_of_ne m ρ c main_v32 (by decide)))).trans (row32_at3 m ρ c)
theorem row33_at7 : W7 m ρ c (Proc.devRef .tc main_v33) = val_main_v64 (F := Ideal) (m ((c : Thread nD τ).loc main_arg6)) := ((W7_of m ρ c main_v33 (by decide)).trans ((W6_of_ne m ρ c main_v33 (by decide)).trans ((W5_of m ρ c main_v33 (by decide)).trans ((W4_of_ne m ρ c main_v33 (by decide)))))).trans (row33_at3 m ρ c)
theorem row34_at9 : W9 m ρ c (Proc.devRef .tc main_v34) = val_main_v89 (F := Ideal) (m ((c : Thread nD τ).loc main_arg10)) := ((W9_of m ρ c main_v34 (by decide)).trans ((W8_of_ne m ρ c main_v34 (by decide)).trans ((W7_of m ρ c main_v34 (by decide)).trans ((W6_of_ne m ρ c main_v34 (by decide)).trans ((W5_of m ρ c main_v34 (by decide)).trans ((W4_of_ne m ρ c main_v34 (by decide)))))))).trans (row34_at3 m ρ c)

/-! ## The layers -/

/-- After the first region: X·W₁. -/
theorem layer1 : W4 m ρ c (Proc.devRef .tc main_v35) = val_main_v32 (F := Ideal) (m ((c : Thread nD τ).loc main_arg0)) (m ((c : Thread nD τ).loc main_arg3)) :=
  (W4_arr m ρ c 2).trans ((Region0.value (V3 m ρ) c (m ((c : Thread nD τ).loc main_arg0)) (m ((c : Thread nD τ).loc main_arg3)) (arg0_at3 m ρ c) (arg3_at3 m ρ c)).trans
    (v32_eq (m ((c : Thread nD τ).loc main_arg0)) (m ((c : Thread nD τ).loc main_arg3))).symm)

/-- Its aggregation. -/
theorem agg1_at5 : W5 m ρ c (Proc.devRef .tc main_v48) = val_main_v45 (F := Ideal) (m ((c : Thread nD τ).loc main_arg0)) (m ((c : Thread nD τ).loc main_arg1)) (m ((c : Thread nD τ).loc main_arg3)) :=
  agg1 (W4 m ρ c) (m ((c : Thread nD τ).loc main_arg0)) (m ((c : Thread nD τ).loc main_arg1)) (m ((c : Thread nD τ).loc main_arg3)) (layer1 m ρ c) (v3_at4 m ρ c) (v6_at4 m ρ c) (v31_at4 m ρ c)

/-- After the second region: the rectified aggregation times W₂. -/
theorem layer2 : W6 m ρ c (Proc.devRef .tc main_v49) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 3).trans ((Region1.value (V5 m ρ) c _ _ _ (agg1_at5 m ρ c) (row32_at5 m ρ c) (arg5_at5 m ρ c)).trans
    (v50_eq (m ((c : Thread nD τ).loc main_arg0)) (m ((c : Thread nD τ).loc main_arg1)) (m ((c : Thread nD τ).loc main_arg3)) (m ((c : Thread nD τ).loc main_arg4)) (m ((c : Thread nD τ).loc main_arg5))).symm)

theorem agg2_at7 : W7 m ρ c (Proc.devRef .tc main_v62) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  agg2 (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (layer2 m ρ c) (v3_at6 m ρ c) (v6_at6 m ρ c) (v31_at6 m ρ c)

/-- After the third region: the rectified second aggregation times W₃. -/
theorem layer3 : W8 m ρ c (Proc.devRef .tc main_v63) = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans ((Region2.value (V7 m ρ) c _ _ _ (agg2_at7 m ρ c) (row33_at7 m ρ c) (arg7_at7 m ρ c)).trans
    (v68_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm)

/-- Its aggregation, the third bias, and the sum over each graph's rows. -/
theorem pooled_at9 : W9 m ρ c (Proc.devRef .tc main_v82) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  agg3_pool (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (layer3 m ρ c) (v3_at8 m ρ c) (v6_at8 m ρ c) (v31_at8 m ρ c)
    (arg8_at8 m ρ c) (arg2_at8 m ρ c)

/-- THE KERNEL'S RESULT: the last boundary's contents at the result buffer are the reference's last stage of the
    launch contents of the arguments. -/
theorem result : W10 m ρ c (Proc.devRef .tc main_v83) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W10_arr m ρ c 3).trans ((Region3.value (V9 m ρ) c _ _ _ (pooled_at9 m ρ c) (arg9_at9 m ρ c) (row34_at9 m ρ c)).trans
    (v91_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm)

/-- THE KERNEL'S RUN, READ: every weakly fair execution ends, nothing faulting, with the result array at the
    reference's last stage of the arguments' launch contents, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v83) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.Named.run_named m ρ)

end Cert.KernelIdeal.Chain

end
-- ==== Proof.lean ====
/-
  A three-layer graph convolution network with sum pooling and a linear classifier, against its plain reference. Both
  programs build the same index vectors (edge list rows with the self loops 0 … n−1 appended), the same degrees,
  the same symmetric edge weights rsqrt(deg[src])·rsqrt(deg[dst]), and after each dense layer the same aggregation:
  gather the source rows, scale by the edge weight, scatter-add onto the destination rows. They differ only in where
  the dense layers run: the kernel computes X·W₁, relu(A₁ + b₁)·W₂, relu(A₂ + b₂)·W₃ and P·W_lin + b_lin in four
  tiled matrix-unit regions (operands rounded to a narrower float format on the way in), the reference in host dot
  products with the bias additions and the rectifiers as separate array operations.

  On the extended reals the narrowing is the identity, a matrix-unit product into a zero accumulator and a host dot
  product are both the sum over k of l(i,k)·r(k,q), a row of a product depends only on that row of the left operand
  (so a product computed ten thousand rows at a time is the product), and bias and rectifier act entry by entry. So
  each region's result array is the reference's corresponding stage of the same inputs, every host stretch between
  regions is the same composition of operations on both sides, and the two results are one function of the
  arguments. No law of the extended reals beyond these is used: the finiteness of the inputs is never opened.

  The three frames are the generated frame runs (the reference's with its result forgotten); the ideal pass rewrote
  nothing, so there is nothing to preserve.
-/
import proofs.«167334_j15204184228223_1_alg».proof.Defs
import proofs.«167334_j15204184228223_1_alg».proof.Proof.Gen.Kernel
import proofs.«167334_j15204184228223_1_alg».proof.Proof.Gen.Kernel.Frame
import proofs.«167334_j15204184228223_1_alg».proof.Proof.Gen.KernelIdeal
import proofs.«167334_j15204184228223_1_alg».proof.Proof.Gen.KernelIdeal.Frame
import proofs.«167334_j15204184228223_1_alg».proof.Proof.Gen.ReferenceIdeal
import proofs.«167334_j15204184228223_1_alg».proof.Proof.Gen.Pre_finite_inputs
import proofs.«167334_j15204184228223_1_alg».proof.Proof.RefRunP
import proofs.«167334_j15204184228223_1_alg».proof.Proof.RefValue
import proofs.«167334_j15204184228223_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the reference's last stage of the kernel's arguments: the kernel's by the
    fold through its stretches and regions, the reference's by its own fold and the agreement of the arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10⟩ := hagree c
  exact Cert.ReferenceIdeal.RefValue.value' (StableHlo.launchContents m' c) _ _ _ _ _ _ _ _ _ _ _ h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
